-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64x2 .f32) (main_arg15 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg14
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg15 main_v63 main_v67

def fn_part2 {F : FTy → Type} [FloatOps F] (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x256 .f32) (main_arg1 : IVec S2x1600000 32) (main_arg2 : FVec F S256x128 .f32) (main_arg3 : FVec F S128 .f32) (main_arg4 : FVec F S128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 102
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S100000x64, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x64, .f32⟩
  | .hbm, ⟨88, _⟩ => ⟨S1700000x1, .f32⟩
  | .hbm, ⟨89, _⟩ => ⟨S1700000x64, .f32⟩
  | .hbm, ⟨90, _⟩ => ⟨S1700000x64, .f32⟩
  | .hbm, ⟨91, _⟩ => ⟨S_, .f32⟩
  | .hbm, ⟨92, _⟩ => ⟨S100000x64, .f32⟩
  | .hbm, ⟨93, _⟩ => ⟨S1700000x1, .i32⟩
  | .hbm, ⟨94, _⟩ => ⟨S100000x64, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x2, .f32⟩
  | .hbm, ⟨101, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S64x2, .f32⟩
  | .local _ .vmem, ⟨23, _⟩ => ⟨S1x2, .f32⟩
  | .local _ .vmem, ⟨24, _⟩ => ⟨S5000x2, .f32⟩
  | .local _ .vmem, ⟨25, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2_S1x2 : S2.ShapeCasts S1x2
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x2.size a ≤ S64x2.size a
  hwx2_6 : ∀ i : grid2.Coords, EltTy.bits .f32 = 32 ∨ (Rect.block (s := S64x2) S64x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x2.size a ≤ S100000x2.size a
  hwx2_8 : ∀ i : grid2.Coords, EltTy.bits .f32 = 32 ∨ (Rect.block (s := S100000x2) S5000x2.size (cc2_transform_8 i) (hinb2_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S64x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68) S1x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v69) S5000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64, .f32⟩
  | 13 => ⟨S64, .f32⟩
  | 14 => ⟨S64x2, .f32⟩
  | 15 => ⟨S2, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S100000x128, .f32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x64, .f32⟩
  | 96 => ⟨S_, .f32⟩
  | 97 => ⟨S1700000, .f32⟩
  | 98 => ⟨S_, .f32⟩
  | 99 => ⟨S100000, .f32⟩
  | 100 => ⟨S1700000x1, .i32⟩
  | 101 => ⟨S100000, .f32⟩
  | 102 => ⟨S_, .f32⟩
  | 103 => ⟨S100000, .f32⟩
  | 104 => ⟨S100000, .i1⟩
  | 105 => ⟨S100000, .f32⟩
  | 106 => ⟨S_, .f32⟩
  | 107 => ⟨S_, .f32⟩
  | 108 => ⟨S100000, .f32⟩
  | 109 => ⟨S100000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x256, .f32⟩

abbrev hbmTy0_1 (i : Nat) : BufTy := match i % 128 with
  | 0 => ⟨S1700000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x64, .f32⟩
  | 10 => ⟨S1700000x1, .f32⟩
  | 11 => ⟨S1700000x64, .f32⟩
  | 12 => ⟨S1700000x64, .f32⟩
  | 13 => ⟨S_, .f32⟩
  | 14 => ⟨S100000x64, .f32⟩
  | 15 => ⟨S1700000x1, .i32⟩
  | 16 => ⟨S100000x64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S64, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x2, .f32⟩
  | 40 => ⟨S1x2, .f32⟩
  | 41 => ⟨S100000x2, .f32⟩
  | 42 => ⟨S100000x2, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_call2_v0 : Ref sig .tc := ⟨.hbm, 107, rfl⟩
abbrev main_call2_v1 : Ref sig .tc := ⟨.hbm, 108, rfl⟩
abbrev main_v71 : Ref sig .tc := ⟨.hbm, 109, rfl⟩
abbrev main_c_14 : Ref sig .tc := ⟨.hbm, 110, rfl⟩
abbrev main_v72 : Ref sig .tc := ⟨.hbm, 111, rfl⟩
abbrev main_v73 : Ref sig .tc := ⟨.hbm, 112, rfl⟩
abbrev main_c_15 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_c_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_18 : Ref sig .tc := ⟨.hbm, 129, rfl⟩
abbrev main_v87 : Ref sig .tc := ⟨.hbm, 130, rfl⟩
abbrev main_v88 : Ref sig .tc := ⟨.hbm, 131, rfl⟩
abbrev main_c_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_21 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_call3_cst : Ref sig .tc := ⟨.hbm, 164, rfl⟩
abbrev main_call3_v0 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run, with its result named.

  Every weakly fair execution of the program — three launches among stretches of host operations — terminates without a
  fault, and in the final state every buffer that outlives a launch holds what the last segment boundary says it
  holds. Read at the sixteen argument buffers that is the frame; read also at the result buffer it says the result is
  the last launch's output array as the write-backs leave it.
-/
import proofs.«140213_j44452911513781_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.Run

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibNormLayer.lean ====
/-
  General lemmas: the dense half of a graph-convolution layer with an eval-mode batch normalisation, over the
  extended reals, as one function of its operands read at an index.

  The layer takes the aggregated features `s` of shape [a, k], five parameter rows of shape [1, k] — the bias `b`,
  the scale `g`, the shift `be`, the running mean `m` and the running variance `v` — and a weight `w` of shape
  [k, n]. Its hidden activation at (p, q) is
      max ((((s (p, q) + b q) - m q) · rsqrt (v q + ε)) · g q + be q) 0,
  with ε the single-precision word nearest 1e-5, and its result at (p, j) is the sum over q of that activation at
  (p, q) times w (q, j); the last layer of a network adds a bias row to that.

  * `unit`, `hiddenAt`, `hidden`: the activation, entry by entry and as an [a, k] array;
  * `denseAt`, `dense`: a plain product [a, k] × [k, n] as sums;
  * `hostHidden_eq`: the host's chain of whole-array operations on parameter VECTORS laid first into rows and then
    along every row of the matrix is the activation at those rows;
  * `coreHidden_eq`: the chain a core runs on one block, each parameter row broadcast over the block's rows, is the
    activation of the block;
  * `hostDense_eq`, `coreDense_eq`: the host's product, and a matrix-unit product of narrowed operands into a zero
    accumulator, are `dense`;
  * `hiddenAt_congr`, `denseAt_congr`: entry (p, ·) reads only row p of the matrix, so a block of rows of the layer
    is the layer of the block of rows.
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws
import proofs.«140213_j44452911513781_1_alg».proof.Proof.LibAffine
import proofs.«140213_j44452911513781_1_alg».proof.Proof.LibColumnRow

noncomputable section

namespace Cert.LibNormLayer

open Idealize.ShloMosaic Idealize.ShloMosaic.ValueIdx

variable {a k n : ℕ}

/-- One activation: batch normalisation by the running statistics, then the positive part. -/
def unit (s b g be m v : Ideal .f32) : Ideal .f32 :=
  max ((((s + b) - m) * Ideal.rsqrt (v + Ideal.ofBits .f32 0x3727C5AC#32)) * g + be) (Ideal.ofBits .f32 0x00000000#32)

/-- The activation at (p, q): the matrix's entry there and entry q of each parameter row. -/
def hiddenAt (s : FVec Ideal ⟨2, ![a, k]⟩ .f32) (b g be m v : FVec Ideal ⟨2, ![1, k]⟩ .f32) (p : Fin a) (q : Fin k) : Ideal .f32 :=
  unit (s (ix2 p q)) (b (ix2 (0 : Fin 1) q)) (g (ix2 (0 : Fin 1) q)) (be (ix2 (0 : Fin 1) q)) (m (ix2 (0 : Fin 1) q))
    (v (ix2 (0 : Fin 1) q))

/-- The activation as an [a, k] array. -/
def hidden (s : FVec Ideal ⟨2, ![a, k]⟩ .f32) (b g be m v : FVec Ideal ⟨2, ![1, k]⟩ .f32) : FVec Ideal ⟨2, ![a, k]⟩ .f32 :=
  fun i => hiddenAt s b g be m v (i 0) (i 1)

theorem hidden_ix2 (s : FVec Ideal ⟨2, ![a, k]⟩ .f32) (b g be m v : FVec Ideal ⟨2, ![1, k]⟩ .f32) (p : Fin a) (q : Fin k) :
    hidden s b g be m v (ix2 p q) = hiddenAt s b g be m v p q := rfl

/-- Entry (p, j) of a plain product: the sum over q of x (p, q) · w (q, j). -/
def denseAt (x : FVec Ideal ⟨2, ![a, k]⟩ .f32) (w : FVec Ideal ⟨2, ![k, n]⟩ .f32) (p : Fin a) (j : Fin n) : Ideal .f32 :=
  ∑ q : Fin k, x (ix2 p q) * w (ix2 q j)

/-- The plain product as an [a, n] array. -/
def dense (x : FVec Ideal ⟨2, ![a, k]⟩ .f32) (w : FVec Ideal ⟨2, ![k, n]⟩ .f32) : FVec Ideal ⟨2, ![a, n]⟩ .f32 :=
  fun i => denseAt x w (i 0) (i 1)

theorem dense_ix2 (x : FVec Ideal ⟨2, ![a, k]⟩ .f32) (w : FVec Ideal ⟨2, ![k, n]⟩ .f32) (p : Fin a) (j : Fin n) :
    dense x w (ix2 p j) = denseAt x w p j := rfl

/-- The activation at (p, q) reads the matrix only at (p, q). -/
theorem hiddenAt_congr {a' : ℕ} (S : FVec Ideal ⟨2, ![a, k]⟩ .f32) (s : FVec Ideal ⟨2, ![a', k]⟩ .f32)
    (B G BE M V b g be m v : FVec Ideal ⟨2, ![1, k]⟩ .f32) (p : Fin a') (p' : Fin a) (q : Fin k)
    (hs : s (ix2 p q) = S (ix2 p' q)) (hb : b (ix2 (0 : Fin 1) q) = B (ix2 (0 : Fin 1) q))
    (hg : g (ix2 (0 : Fin 1) q) = G (ix2 (0 : Fin 1) q)) (hbe : be (ix2 (0 : Fin 1) q) = BE (ix2 (0 : Fin 1) q))
    (hm : m (ix2 (0 : Fin 1) q) = M (ix2 (0 : Fin 1) q)) (hv : v (ix2 (0 : Fin 1) q) = V (ix2 (0 : Fin 1) q)) :
    hiddenAt s b g be m v p q = hiddenAt S B G BE M V p' q := by
  unfold hiddenAt
  rw [hs, hb, hg, hbe, hm, hv]

/-- Entry (p, j) of a product reads only row p of the left operand and column j of the right. -/
theorem denseAt_congr {a' : ℕ} (X : FVec Ideal ⟨2, ![a, k]⟩ .f32) (W : FVec Ideal ⟨2, ![k, n]⟩ .f32)
    (x : FVec Ideal ⟨2, ![a', k]⟩ .f32) (w : FVec Ideal ⟨2, ![k, n]⟩ .f32) (p : Fin a') (p' : Fin a) (j : Fin n)
    (hx : ∀ q : Fin k, x (ix2 p q) = X (ix2 p' q)) (hw : ∀ q : Fin k, w (ix2 q j) = W (ix2 q j)) :
    denseAt x w p j = denseAt X W p' j :=
  Finset.sum_congr rfl fun q _ => by rw [hx q, hw q]

/-- The host's plain product, whose record contracts the left operand's columns against the right operand's rows,
    is the product as sums. -/
theorem hostDense_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (x : FVec Ideal ⟨2, ![a, k]⟩ .f32) (w : FVec Ideal ⟨2, ![k, n]⟩ .f32) :
    Host.dotGeneral D prec x w = dense x w := by
  funext i
  obtain ⟨p, j, rfl⟩ : ∃ (p : Fin a) (j : Fin n), i = ix2 p j := ⟨i 0, i 1, eq_ix2 i⟩
  exact LibAffine.hostDot_ix2 D hr hs hl0 hl1 hr0 hr1 prec x w p j

/-- A matrix-unit product of the two operands narrowed to another float format, into the zero accumulator, is the
    product as sums: a change of format is the identity on the extended reals. -/
theorem coreDense_eq {ψ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (hψ : ψ.bits < FTy.f32.bits)
    (x : FVec Ideal ⟨2, ![a, k]⟩ .f32) (w : FVec Ideal ⟨2, ![k, n]⟩ .f32) :
    matmul D prec (truncf ψ x hψ) (truncf ψ w hψ) (constant ⟨2, ![a, n]⟩ .f32 0x00000000#32) = dense x w := by
  funext i
  obtain ⟨p, j, rfl⟩ : ∃ (p : Fin a) (j : Fin n), i = ix2 p j := ⟨i 0, i 1, eq_ix2 i⟩
  exact LibAffine.coreDot_ix2 D hr hs hl0 hl1 hr0 hr1 prec (truncf ψ x hψ) (truncf ψ w hψ) p j

/-- A scalar laid over a whole array reads, at every index, that scalar. -/
theorem broadcastInDim_scalar_apply {α : Type} {t : Shape} (hd : (⟨0, ![]⟩ : Shape).BroadcastsInDim t ![])
    (x : (⟨0, ![]⟩ : Shape).Idx → α) (i : t.Idx) : broadcastInDim t ![] hd x i = x ix0 :=
  broadcastInDim_apply ![] hd x i ix0 fun ax => ax.elim0

/-- The host's chain on one layer — add the bias, subtract the mean, multiply by the reciprocal root of the variance
    plus ε, by the scale, add the shift, take the positive part —, each parameter a VECTOR laid into a row and then
    along every row of the matrix, is the activation at those rows. -/
theorem hostHidden_eq (h01 : (⟨2, ![1, k]⟩ : Shape).BroadcastsInDim ⟨2, ![a, k]⟩ ![0, 1])
    (h1 : (⟨1, ![k]⟩ : Shape).BroadcastsInDim ⟨2, ![1, k]⟩ ![1])
    (hε : (⟨0, ![]⟩ : Shape).BroadcastsInDim ⟨1, ![k]⟩ ![]) (hz : (⟨0, ![]⟩ : Shape).BroadcastsInDim ⟨2, ![a, k]⟩ ![])
    (s : FVec Ideal ⟨2, ![a, k]⟩ .f32) (b g be m v : FVec Ideal ⟨1, ![k]⟩ .f32) :
    maximumf
        (addf
          (mulf
            (mulf
              (subf (addf s (broadcastInDim ⟨2, ![a, k]⟩ ![0, 1] h01 (broadcastInDim ⟨2, ![1, k]⟩ ![1] h1 b)))
                (broadcastInDim ⟨2, ![a, k]⟩ ![0, 1] h01 (broadcastInDim ⟨2, ![1, k]⟩ ![1] h1 m)))
              (broadcastInDim ⟨2, ![a, k]⟩ ![0, 1] h01 (broadcastInDim ⟨2, ![1, k]⟩ ![1] h1
                (Host.rsqrt (addf v (broadcastInDim ⟨1, ![k]⟩ ![] hε (constant (F := Ideal) ⟨0, ![]⟩ .f32 0x3727C5AC#32)))))))
            (broadcastInDim ⟨2, ![a, k]⟩ ![0, 1] h01 (broadcastInDim ⟨2, ![1, k]⟩ ![1] h1 g)))
          (broadcastInDim ⟨2, ![a, k]⟩ ![0, 1] h01 (broadcastInDim ⟨2, ![1, k]⟩ ![1] h1 be)))
        (broadcastInDim ⟨2, ![a, k]⟩ ![] hz (constant (F := Ideal) ⟨0, ![]⟩ .f32 0x00000000#32))
      = hidden s (broadcastInDim ⟨2, ![1, k]⟩ ![1] h1 b) (broadcastInDim ⟨2, ![1, k]⟩ ![1] h1 g)
          (broadcastInDim ⟨2, ![1, k]⟩ ![1] h1 be) (broadcastInDim ⟨2, ![1, k]⟩ ![1] h1 m)
          (broadcastInDim ⟨2, ![1, k]⟩ ![1] h1 v) := by
  funext i
  obtain ⟨p, q, rfl⟩ : ∃ (p : Fin a) (q : Fin k), i = ix2 p q := ⟨i 0, i 1, eq_ix2 i⟩
  rw [maximumf_apply, addf_apply, mulf_apply, mulf_apply, subf_apply, addf_apply, broadcastInDim_scalar_apply,
    LibAffine.broadcastInDim_1n_an_apply, LibAffine.broadcastInDim_1n_an_apply, LibAffine.broadcastInDim_1n_an_apply,
    LibAffine.broadcastInDim_1n_an_apply, LibAffine.broadcastInDim_1n_an_apply,
    LibColumnRow.broadcastInDim_n_1n_apply (x := Host.rsqrt _), hidden_ix2]
  show _ = unit _ _ _ _ _ _
  unfold unit
  rw [LibColumnRow.broadcastInDim_n_1n_apply (x := v)]
  rfl

/-- The chain a core runs on a block of rows — the same operations, each parameter held as a row [1, k] and
    broadcast over the block's rows, ε and 0 splat from scalars — is the activation of the block. -/
theorem coreHidden_eq (hc : (⟨2, ![a, k]⟩ : Shape).ShapeCasts ⟨2, ![a, k]⟩) (hc1 : (⟨2, ![1, k]⟩ : Shape).ShapeCasts ⟨2, ![1, k]⟩)
    (hb : (⟨2, ![1, k]⟩ : Shape).Broadcasts ⟨2, ![a, k]⟩)
    (s : FVec Ideal ⟨2, ![a, k]⟩ .f32) (b g be m v : FVec Ideal ⟨2, ![1, k]⟩ .f32) :
    maximumf
        (addf
          (mulf
            (mulf
              (subf (addf (shapeCast ⟨2, ![a, k]⟩ s hc) (broadcastTo ⟨2, ![a, k]⟩ (shapeCast ⟨2, ![1, k]⟩ b hc1) hb))
                (broadcastTo ⟨2, ![a, k]⟩ (shapeCast ⟨2, ![1, k]⟩ m hc1) hb))
              (broadcastTo ⟨2, ![a, k]⟩
                (rsqrt (addf (shapeCast ⟨2, ![1, k]⟩ v hc1)
                  (broadcast ⟨2, ![1, k]⟩ (Scalar.ofBits (F := Ideal) .f32 0x3727C5AC#32)))) hb))
            (broadcastTo ⟨2, ![a, k]⟩ (shapeCast ⟨2, ![1, k]⟩ g hc1) hb))
          (broadcastTo ⟨2, ![a, k]⟩ (shapeCast ⟨2, ![1, k]⟩ be hc1) hb))
        (broadcast ⟨2, ![a, k]⟩ (Scalar.ofBits (F := Ideal) .f32 0x00000000#32))
      = hidden s b g be m v := by
  funext i
  obtain ⟨p, q, rfl⟩ : ∃ (p : Fin a) (q : Fin k), i = ix2 p q := ⟨i 0, i 1, eq_ix2 i⟩
  rw [shapeCast_self, shapeCast_self, shapeCast_self, shapeCast_self, shapeCast_self, shapeCast_self,
    maximumf_apply, addf_apply, mulf_apply, mulf_apply, subf_apply, addf_apply, broadcast_apply,
    broadcastTo_1b_ab_apply, broadcastTo_1b_ab_apply, broadcastTo_1b_ab_apply, broadcastTo_1b_ab_apply,
    broadcastTo_1b_ab_apply, hidden_ix2]
  rfl

/-! ## A block of rows of the layer is the layer of the block of rows

  The cores work on blocks of rows: block row p of a block is row `e p` of the whole matrix. The parameter rows and
  the weight are the same for every block. -/

/-- The activation of a block of rows is that block of rows of the activation. -/
theorem hidden_block {a' : ℕ} (S : FVec Ideal ⟨2, ![a, k]⟩ .f32) (B G BE M V : FVec Ideal ⟨2, ![1, k]⟩ .f32)
    (s : FVec Ideal ⟨2, ![a', k]⟩ .f32) (b g be m v : FVec Ideal ⟨2, ![1, k]⟩ .f32) (e : Fin a' → Fin a)
    (hs : ∀ p q, s (ix2 p q) = S (ix2 (e p) q)) (hb : ∀ q, b (ix2 (0 : Fin 1) q) = B (ix2 (0 : Fin 1) q))
    (hg : ∀ q, g (ix2 (0 : Fin 1) q) = G (ix2 (0 : Fin 1) q)) (hbe : ∀ q, be (ix2 (0 : Fin 1) q) = BE (ix2 (0 : Fin 1) q))
    (hm : ∀ q, m (ix2 (0 : Fin 1) q) = M (ix2 (0 : Fin 1) q)) (hv : ∀ q, v (ix2 (0 : Fin 1) q) = V (ix2 (0 : Fin 1) q))
    (p : Fin a') (q : Fin k) :
    hidden s b g be m v (ix2 p q) = hidden S B G BE M V (ix2 (e p) q) :=
  hiddenAt_congr S s B G BE M V b g be m v p (e p) q (hs p q) (hb q) (hg q) (hbe q) (hm q) (hv q)

/-- The product of a block of rows with the weight is that block of rows of the product. -/
theorem dense_block {a' : ℕ} (X : FVec Ideal ⟨2, ![a, k]⟩ .f32) (W : FVec Ideal ⟨2, ![k, n]⟩ .f32)
    (x : FVec Ideal ⟨2, ![a', k]⟩ .f32) (w : FVec Ideal ⟨2, ![k, n]⟩ .f32) (e : Fin a' → Fin a)
    (hx : ∀ p q, x (ix2 p q) = X (ix2 (e p) q)) (hw : ∀ q j, w (ix2 q j) = W (ix2 q j)) (p : Fin a') (j : Fin n) :
    dense x w (ix2 p j) = dense X W (ix2 (e p) j) :=
  denseAt_congr X W x w p (e p) j (fun q => hx p q) (fun q => hw q j)

/-- The same with a bias row added (the last layer). -/
theorem affine_block {a' : ℕ} (X : FVec Ideal ⟨2, ![a, k]⟩ .f32) (W : FVec Ideal ⟨2, ![k, n]⟩ .f32) (C : FVec Ideal ⟨2, ![1, n]⟩ .f32)
    (x : FVec Ideal ⟨2, ![a', k]⟩ .f32) (w : FVec Ideal ⟨2, ![k, n]⟩ .f32) (c : FVec Ideal ⟨2, ![1, n]⟩ .f32) (e : Fin a' → Fin a)
    (hx : ∀ p q, x (ix2 p q) = X (ix2 (e p) q)) (hw : ∀ q j, w (ix2 q j) = W (ix2 q j))
    (hc : ∀ j, c (ix2 (0 : Fin 1) j) = C (ix2 (0 : Fin 1) j)) (p : Fin a') (j : Fin n) :
    LibAffine.affine x w c (ix2 p j) = LibAffine.affine X W C (ix2 (e p) j) :=
  LibAffine.affineAt_congr X W C x w c p (e p) j (fun q => hx p q) (fun q => hw q j) (hc j)

end Cert.LibNormLayer

end
-- ==== Proof.KernelDots.lean ====
/-
  The three matrix products the cores run, one per layer, each on a block of 5000 rows: [5000, 256] × [256, 128],
  [5000, 128] × [128, 64] and [5000, 64] × [64, 2]. Each contracts the left operand's columns against the right
  operand's rows; said of a product's dimension record, that is four facts: the left index of result entry i at
  contraction position q is (i 0, q), the right index is (q, i 1), and the contraction has one axis of the inner extent.
-/
import proofs.«140213_j44452911513781_1_alg».proof.Proof.Gen.KernelIdeal
import Idealize.ShloMosaic.Lib.ValueIdx

namespace Cert.KernelIdeal.Dots

open Cert.KernelIdeal Idealize.ShloMosaic

theorem d0_rank : dot_S5000x256_S256x128_S5000x128_1_0_0_1_n_n.contr.rank = 1 := rfl
theorem d0_size : dot_S5000x256_S256x128_S5000x128_1_0_0_1_n_n.contr.size ⟨0, by decide⟩ = 256 := rfl
theorem d0_l0 (i) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d0_l1 (i) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem d0_r0 (i) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem d0_r1 (i) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem d1_rank : dot_S5000x128_S128x64_S5000x64_1_0_0_1_n_n.contr.rank = 1 := rfl
theorem d1_size : dot_S5000x128_S128x64_S5000x64_1_0_0_1_n_n.contr.size ⟨0, by decide⟩ = 128 := rfl
theorem d1_l0 (i) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem d1_l1 (i) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem d1_r0 (i) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem d1_r1 (i) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem d2_rank : dot_S5000x64_S64x2_S5000x2_1_0_0_1_n_n.contr.rank = 1 := rfl
theorem d2_size : dot_S5000x64_S64x2_S5000x2_1_0_0_1_n_n.contr.size ⟨0, by decide⟩ = 64 := rfl
theorem d2_l0 (i) (q : dot_S5000x64_S64x2_S5000x2_1_0_0_1_n_n.contr.Idx) : (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem d2_l1 (i) (q : dot_S5000x64_S64x2_S5000x2_1_0_0_1_n_n.contr.Idx) : (dot_S5000x64_S64x2_S5000x2_1_0_0_1_n_n.lhsIdx i q 1).val = (q ⟨0, by decide⟩).val :=
  dot_S5000x64_S64x2_S5000x2_1_0_0_1_n_n.lhsIdx_val_of_single rfl i q
theorem d2_r0 (i) (q : dot_S5000x64_S64x2_S5000x2_1_0_0_1_n_n.contr.Idx) : (dot_S5000x64_S64x2_S5000x2_1_0_0_1_n_n.rhsIdx i q 0).val = (q ⟨0, by decide⟩).val :=
  dot_S5000x64_S64x2_S5000x2_1_0_0_1_n_n.rhsIdx_val_of_single rfl i q
theorem d2_r1 (i) (q : dot_S5000x64_S64x2_S5000x2_1_0_0_1_n_n.contr.Idx) : (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

end Cert.KernelIdeal.Dots
-- ==== Proof.KernelRegion0.lean ====
/-
  The first launch: h = x · W1, twenty blocks of 5000 rows.

  At grid point t the cores read rows 5000 t … 5000 t + 4999 of x and the whole of W1, and write back the product of
  the two as rows 5000 t … 5000 t + 4999 of the result. Entry (p, j) of a product reads only row p of its left
  operand, so what point t writes back is that block of rows of the one product x · W1; the twenty blocks fill the
  result, which therefore ends as x · W1 — whatever the buffers hold when the launch is entered (`V`).
-/
import proofs.«140213_j44452911513781_1_alg».proof.Proof.Gen.KernelIdeal.Frame
import proofs.«140213_j44452911513781_1_alg».proof.Proof.LibNormLayer
import proofs.«140213_j44452911513781_1_alg».proof.Proof.KernelDots

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline
open Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the matrix's and the result's block index is (t, 0), the weight's (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 20 := lt_of_lt_of_eq t.isLt N_0

/-- Row p of block t is row 5000 t + p of the whole matrix. -/
def row (t : Fin cfg0.N) (p : Fin 5000) : Fin 100000 := ⟨t.val * 5000 + p.val, by have := t_lt t; have := p.isLt; omega⟩

/-- The body's stored value is the product of its two loaded blocks. -/
theorem pay_eq (x : Vec Ideal S5000x256 .f32) (w : Vec Ideal S256x128 .f32) : k0_pay1 x w = dense x w := by
  unfold k0_pay1
  exact coreDense_eq dot_S5000x256_S256x128_S5000x128_1_0_0_1_n_n Dots.d0_rank Dots.d0_size Dots.d0_l0 Dots.d0_l1 Dots.d0_r0
    Dots.d0_r1 none bitsLt_bf16_f32 x w

/-- The matrix's block at point t, read at (p, q), is x at (5000 t + p, q). -/
theorem read_x (c : Dev nD) (t : Fin cfg0.N) (p : Fin 5000) (q : Fin 256) :
    iblk0 V c 0 t (ix2 p q) = V c main_arg0 (ix2 (row t p) q) := by
  obtain ⟨h0, h1, -⟩ := idx t
  show V c main_arg0 (((cfg0.win 0).blk t).view.emb (ix2 p q)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * q.val = q.val; omega

/-- The weight's block at every point is the whole weight. -/
theorem read_w (c : Dev nD) (t : Fin cfg0.N) (q : Fin 256) (j : Fin 128) :
    iblk0 V c 1 t (ix2 q j) = V c main_arg2 (ix2 q j) := by
  obtain ⟨-, -, h2, h3, -⟩ := idx t
  show V c main_arg2 (((cfg0.win 1).blk t).view.emb (ix2 q j)) = _
  refine congrArg _ (funext fun a => Fin.ext ?_)
  match a with
  | ⟨0, _⟩ => show win0_1.index t (0 : Fin 2) * 256 + 1 * q.val = q.val; omega
  | ⟨1, _⟩ => show win0_1.index t (1 : Fin 2) * 128 + 1 * j.val = j.val; omega

/-- What point t writes back is block t of the one product x · W1. -/
theorem flushed (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  rw [pay_eq]
  obtain ⟨-, -, -, -, h4, h5⟩ := idx t
  funext j
  have hemb : ((cfg0.win 2).blk t).view.emb j = ix2 (row t (j 0)) (j 1) := funext fun a => Fin.ext (by
    match a with
    | ⟨0, _⟩ => show win0_2.index t (0 : Fin 2) * 5000 + 1 * (j 0).val = t.val * 5000 + (j 0).val; omega
    | ⟨1, _⟩ => show win0_2.index t (1 : Fin 2) * 128 + 1 * (j 1).val = (j 1).val; omega)
  show dense (iblk0 V c 0 t) (iblk0 V c 1 t) j = dense (V c main_arg0) (V c main_arg2) (((cfg0.win 2).blk t).view.emb j)
  rw [hemb]
  exact (congrArg (dense (iblk0 V c 0 t) (iblk0 V c 1 t)) (eq_ix2 j)).trans
    (dense_block (V c main_arg0) (V c main_arg2) (iblk0 V c 0 t) (iblk0 V c 1 t) (row t) (read_x V c t) (read_w V c t) (j 0) (j 1))

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r of the result is in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by rw [show cfg0.N = 20 from N_0]; omega
  obtain ⟨-, -, -, -, h4, h5⟩ := idx ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [h4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- THE RESULT of the first launch: x · W1, of the operands as the launch finds them. -/
theorem result (c : Dev nD) : (dat0 V c).arrAt 2 cfg0.N = dense (V c main_arg0) (V c main_arg2) :=
  (dat0 V c).arrAt_eq_of_cover 2 _ (fun t _ => flushed V c t) cover

end Cert.KernelIdeal.Region0

end
-- ==== Proof.KernelRegion1.lean ====
/-
  The second launch: the first layer's dense half, twenty blocks of 5000 rows.

  At grid point t the cores read rows 5000 t … 5000 t + 4999 of the aggregated features, the five parameter rows and the
  whole weight W2; add the bias, batch-normalise, take the positive part, multiply by W2; and write that back as rows
  5000 t … 5000 t + 4999 of the result. Row p of the layer reads only row p of the features, so what point t writes
  back is that block of rows of the one layer on the whole feature matrix; the twenty blocks fill the result, which
  therefore ends as that layer — whatever the buffers hold when the launch is entered (`V`).
-/
import proofs.«140213_j44452911513781_1_alg».proof.Proof.Gen.KernelIdeal.Frame
import proofs.«140213_j44452911513781_1_alg».proof.Proof.LibNormLayer
import proofs.«140213_j44452911513781_1_alg».proof.Proof.KernelDots

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline
open Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the result's block index is (t, 0); every parameter row's
    and the weight's is (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 20 := lt_of_lt_of_eq t.isLt N_1

/-- Row p of block t is row 5000 t + p of the whole matrix. -/
def row (t : Fin cfg1.N) (p : Fin 5000) : Fin 100000 := ⟨t.val * 5000 + p.val, by have := t_lt t; have := p.isLt; omega⟩

/-- The body's stored value is the layer of its loaded blocks: the chain of pointwise operations is the activation,
    the matrix-unit product into a zero accumulator the plain product. -/
theorem pay_eq (s : Vec Ideal S5000x128 .f32) (b m v g be : Vec Ideal S1x128 .f32) (w : Vec Ideal S128x64 .f32) :
    k1_pay1 s b m v g be w = dense (hidden s b g be m v) w := by
  unfold k1_pay1
  dsimp only
  rw [coreHidden_eq, coreDense_eq dot_S5000x128_S128x64_S5000x64_1_0_0_1_n_n Dots.d1_rank Dots.d1_size Dots.d1_l0 Dots.d1_l1 Dots.d1_r0 Dots.d1_r1]

/-- The features' block at point t, read at (p, q), is the features at (5000 t + p, q). -/
theorem read_s (c : Dev nD) (t : Fin cfg1.N) (p : Fin 5000) (q : Fin 128) :
    iblk1 V c 0 t (ix2 p q) = V c main_v43 (ix2 (row t p) q) := by
  have h := idx t
  show V c main_v43 (((cfg1.win 0).blk t).view.emb (ix2 p q)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The b row's block at every point is the whole row. -/
theorem read_b (c : Dev nD) (t : Fin cfg1.N) (q : Fin 128) :
    iblk1 V c 1 t (ix2 (0 : Fin 1) q) = V c main_v44 (ix2 (0 : Fin 1) q) := by
  have h := idx t
  show V c main_v44 (((cfg1.win 1).blk t).view.emb (ix2 (0 : Fin 1) q)) = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The g row's block at every point is the whole row. -/
theorem read_g (c : Dev nD) (t : Fin cfg1.N) (q : Fin 128) :
    iblk1 V c 2 t (ix2 (0 : Fin 1) q) = V c main_v45 (ix2 (0 : Fin 1) q) := by
  have h := idx t
  show V c main_v45 (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The be row's block at every point is the whole row. -/
theorem read_be (c : Dev nD) (t : Fin cfg1.N) (q : Fin 128) :
    iblk1 V c 3 t (ix2 (0 : Fin 1) q) = V c main_v46 (ix2 (0 : Fin 1) q) := by
  have h := idx t
  show V c main_v46 (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The m row's block at every point is the whole row. -/
theorem read_m (c : Dev nD) (t : Fin cfg1.N) (q : Fin 128) :
    iblk1 V c 4 t (ix2 (0 : Fin 1) q) = V c main_v47 (ix2 (0 : Fin 1) q) := by
  have h := idx t
  show V c main_v47 (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The v row's block at every point is the whole row. -/
theorem read_v (c : Dev nD) (t : Fin cfg1.N) (q : Fin 128) :
    iblk1 V c 5 t (ix2 (0 : Fin 1) q) = V c main_v48 (ix2 (0 : Fin 1) q) := by
  have h := idx t
  show V c main_v48 (((cfg1.win 5).blk t).view.emb (ix2 (0 : Fin 1) q)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- The weight's block at every point is the whole weight. -/
theorem read_w (c : Dev nD) (t : Fin cfg1.N) (q : Fin 128) (j : Fin 64) :
    iblk1 V c 6 t (ix2 q j) = V c main_arg8 (ix2 q j) := by
  have h := idx t
  show V c main_arg8 (((cfg1.win 6).blk t).view.emb (ix2 q j)) = _
  refine congrArg _ (funext fun a => Fin.ext ?_)
  match a with
  | ⟨0, _⟩ => show win1_6.index t (0 : Fin 2) * 128 + 1 * q.val = q.val; omega
  | ⟨1, _⟩ => show win1_6.index t (1 : Fin 2) * 64 + 1 * j.val = j.val; omega

/-- What point t writes back is block t of the one layer on the whole feature matrix. -/
theorem flushed (c : Dev nD) (t : Fin cfg1.N) :
    (dat1 V c).flushed 7 t = ((cfg1.win 7).blk t).view.read (Elt Ideal)
      (dense (hidden (V c main_v43) (V c main_v44) (V c main_v45) (V c main_v46) (V c main_v47) (V c main_v48)) (V c main_arg8)) := by
  show (cfg1.win 7).cut (grid1.coords t) ((dat1 V c).after 7 t) = _
  rw [after1_7]
  unfold out1_7
  rw [View.canon_unit_zero hz]
  simp only [View.ld_unit_zero (S := S5000x128) hz, View.ld_unit_zero (S := S1x128) hz, View.ld_unit_zero (S := S128x64) hz]
  rw [pay_eq]
  have h := idx t
  funext j
  have hemb : ((cfg1.win 7).blk t).view.emb j = ix2 (row t (j 0)) (j 1) := funext fun a => Fin.ext (by
    match a with
    | ⟨0, _⟩ => show win1_7.index t (0 : Fin 2) * 5000 + 1 * (j 0).val = t.val * 5000 + (j 0).val; omega
    | ⟨1, _⟩ => show win1_7.index t (1 : Fin 2) * 64 + 1 * (j 1).val = (j 1).val; omega)
  show (dense (hidden (iblk1 V c 0 t) (iblk1 V c 1 t) (iblk1 V c 2 t) (iblk1 V c 3 t) (iblk1 V c 4 t) (iblk1 V c 5 t)) (iblk1 V c 6 t)) j
    = (dense (hidden (V c main_v43) (V c main_v44) (V c main_v45) (V c main_v46) (V c main_v47) (V c main_v48)) (V c main_arg8)) (((cfg1.win 7).blk t).view.emb j)
  rw [hemb]
  exact (congrArg (dense (hidden (iblk1 V c 0 t) (iblk1 V c 1 t) (iblk1 V c 2 t) (iblk1 V c 3 t) (iblk1 V c 4 t) (iblk1 V c 5 t)) (iblk1 V c 6 t)) (eq_ix2 j)).trans
    (dense_block (hidden (V c main_v43) (V c main_v44) (V c main_v45) (V c main_v46) (V c main_v47) (V c main_v48)) (V c main_arg8)
        (hidden (iblk1 V c 0 t) (iblk1 V c 1 t) (iblk1 V c 2 t) (iblk1 V c 3 t) (iblk1 V c 4 t) (iblk1 V c 5 t)) (iblk1 V c 6 t) (row t)
        (hidden_block (V c main_v43) (V c main_v44) (V c main_v45) (V c main_v46) (V c main_v47) (V c main_v48)
        (iblk1 V c 0 t) (iblk1 V c 1 t) (iblk1 V c 2 t) (iblk1 V c 3 t) (iblk1 V c 4 t) (iblk1 V c 5 t) (row t)
        (read_s V c t) (read_b V c t) (read_g V c t) (read_be V c t) (read_m V c t) (read_v V c t)) (read_w V c t) (j 0) (j 1))

/-- An index of the result is in point t's block iff each coordinate is in the block's range on its axis. -/
theorem mem_blk (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v49).slice (win1_7.rect t)).set ↔ _
  rw [View.set_slice_whole, Rect.mem_set_unit]
  exact Iff.rfl

/-- Row r of the result is in the block of point r / 5000. -/
theorem cover (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have ht : (i 0).val / 5000 < cfg1.N := by rw [show cfg1.N = 20 from N_1]; omega
  have h := idx ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    have h0 : win1_7.index ⟨(i 0).val / 5000, ht⟩ (0 : Fin 2) = (i 0).val / 5000 := h.2.2.2.2.2.2.2.2.2.2.2.2.2.2.1
    rw [h0]; omega
  | ⟨1, _⟩ =>
    show win1_7.index ⟨(i 0).val / 5000, ht⟩ (1 : Fin 2) * 64 ≤ (i 1).val
      ∧ (i 1).val < win1_7.index ⟨(i 0).val / 5000, ht⟩ (1 : Fin 2) * 64 + 64
    have h1 : win1_7.index ⟨(i 0).val / 5000, ht⟩ (1 : Fin 2) = 0 := h.2.2.2.2.2.2.2.2.2.2.2.2.2.2.2
    rw [h1]; omega

/-- THE RESULT of this launch: the layer on the whole feature matrix, of the operands as the launch finds them. -/
theorem result (c : Dev nD) : (dat1 V c).arrAt 7 cfg1.N
    = dense (hidden (V c main_v43) (V c main_v44) (V c main_v45) (V c main_v46) (V c main_v47) (V c main_v48)) (V c main_arg8) :=
  (dat1 V c).arrAt_eq_of_cover 7 _ (fun t _ => flushed V c t) cover

end Cert.KernelIdeal.Region1

end
-- ==== Proof.KernelRegion2.lean ====
/-
  The third launch: the second layer's dense half and the final linear map, twenty blocks of 5000 rows.

  At grid point t the cores read rows 5000 t … 5000 t + 4999 of the aggregated features, the five parameter rows, the
  whole weight fcW and the bias row fcb; add the layer's bias, batch-normalise, take the positive part, multiply by fcW,
  add fcb; and write that back as rows 5000 t … 5000 t + 4999 of the result. Row p reads only row p of the features, so
  what point t writes back is that block of rows of the one map on the whole feature matrix; the twenty blocks fill
  the result, which therefore ends as that map — whatever the buffers hold when the launch is entered (`V`).
-/
import proofs.«140213_j44452911513781_1_alg».proof.Proof.Gen.KernelIdeal.Frame
import proofs.«140213_j44452911513781_1_alg».proof.Proof.LibNormLayer
import proofs.«140213_j44452911513781_1_alg».proof.Proof.KernelDots

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline
open Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the result's block index is (t, 0); every parameter row's
    and the weight's is (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

theorem t_lt (t : Fin cfg2.N) : t.val < 20 := lt_of_lt_of_eq t.isLt N_2

/-- Row p of block t is row 5000 t + p of the whole matrix. -/
def row (t : Fin cfg2.N) (p : Fin 5000) : Fin 100000 := ⟨t.val * 5000 + p.val, by have := t_lt t; have := p.isLt; omega⟩

/-- The body's stored value is the layer of its loaded blocks: the chain of pointwise operations is the activation,
    the matrix-unit product into a zero accumulator the plain product, the bias row broadcast over the rows added. -/
theorem pay_eq (s : Vec Ideal S5000x64 .f32) (b m v g be : Vec Ideal S1x64 .f32) (w : Vec Ideal S64x2 .f32) (cc : Vec Ideal S1x2 .f32) :
    k2_pay1 s b m v g be w cc = LibAffine.affine (hidden s b g be m v) w cc := by
  unfold k2_pay1
  dsimp only
  rw [coreHidden_eq, shapeCast_self, coreDense_eq dot_S5000x64_S64x2_S5000x2_1_0_0_1_n_n Dots.d2_rank Dots.d2_size Dots.d2_l0 Dots.d2_l1 Dots.d2_r0 Dots.d2_r1]
  funext i
  obtain ⟨p, j, rfl⟩ : ∃ (p : Fin 5000) (j : Fin 2), i = ix2 p j := ⟨i 0, i 1, eq_ix2 i⟩
  rw [addf_apply, broadcastTo_1b_ab_apply]
  rfl

/-- The features' block at point t, read at (p, q), is the features at (5000 t + p, q). -/
theorem read_s (c : Dev nD) (t : Fin cfg2.N) (p : Fin 5000) (q : Fin 64) :
    iblk2 V c 0 t (ix2 p q) = V c main_v62 (ix2 (row t p) q) := by
  have h := idx t
  show V c main_v62 (((cfg2.win 0).blk t).view.emb (ix2 p q)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * q.val = q.val; omega

/-- The b row's block at every point is the whole row. -/
theorem read_b (c : Dev nD) (t : Fin cfg2.N) (q : Fin 64) :
    iblk2 V c 1 t (ix2 (0 : Fin 1) q) = V c main_v63 (ix2 (0 : Fin 1) q) := by
  have h := idx t
  show V c main_v63 (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * q.val = q.val; omega

/-- The g row's block at every point is the whole row. -/
theorem read_g (c : Dev nD) (t : Fin cfg2.N) (q : Fin 64) :
    iblk2 V c 2 t (ix2 (0 : Fin 1) q) = V c main_v64 (ix2 (0 : Fin 1) q) := by
  have h := idx t
  show V c main_v64 (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- The be row's block at every point is the whole row. -/
theorem read_be (c : Dev nD) (t : Fin cfg2.N) (q : Fin 64) :
    iblk2 V c 3 t (ix2 (0 : Fin 1) q) = V c main_v65 (ix2 (0 : Fin 1) q) := by
  have h := idx t
  show V c main_v65 (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- The m row's block at every point is the whole row. -/
theorem read_m (c : Dev nD) (t : Fin cfg2.N) (q : Fin 64) :
    iblk2 V c 4 t (ix2 (0 : Fin 1) q) = V c main_v66 (ix2 (0 : Fin 1) q) := by
  have h := idx t
  show V c main_v66 (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-- The v row's block at every point is the whole row. -/
theorem read_v (c : Dev nD) (t : Fin cfg2.N) (q : Fin 64) :
    iblk2 V c 5 t (ix2 (0 : Fin 1) q) = V c main_v67 (ix2 (0 : Fin 1) q) := by
  have h := idx t
  show V c main_v67 (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 64 + 1 * q.val = q.val; omega

/-- The weight's block at every point is the whole weight. -/
theorem read_w (c : Dev nD) (t : Fin cfg2.N) (q : Fin 64) (j : Fin 2) :
    iblk2 V c 6 t (ix2 q j) = V c main_arg14 (ix2 q j) := by
  have h := idx t
  show V c main_arg14 (((cfg2.win 6).blk t).view.emb (ix2 q j)) = _
  refine congrArg _ (funext fun a => Fin.ext ?_)
  match a with
  | ⟨0, _⟩ => show win2_6.index t (0 : Fin 2) * 64 + 1 * q.val = q.val; omega
  | ⟨1, _⟩ => show win2_6.index t (1 : Fin 2) * 2 + 1 * j.val = j.val; omega

/-- The bias row's block at every point is the whole row. -/
theorem read_c (c : Dev nD) (t : Fin cfg2.N) (j : Fin 2) :
    iblk2 V c 7 t (ix2 (0 : Fin 1) j) = V c main_v68 (ix2 (0 : Fin 1) j) := by
  have h := idx t
  show V c main_v68 (((cfg2.win 7).blk t).view.emb (ix2 (0 : Fin 1) j)) = _
  refine congrArg _ (funext fun a => Fin.ext ?_)
  match a with
  | ⟨0, _⟩ => show win2_7.index t (0 : Fin 2) * 1 + 1 * 0 = 0; omega
  | ⟨1, _⟩ => show win2_7.index t (1 : Fin 2) * 2 + 1 * j.val = j.val; omega

/-- What point t writes back is block t of the one layer on the whole feature matrix. -/
theorem flushed (c : Dev nD) (t : Fin cfg2.N) :
    (dat2 V c).flushed 8 t = ((cfg2.win 8).blk t).view.read (Elt Ideal)
      (LibAffine.affine (hidden (V c main_v62) (V c main_v63) (V c main_v64) (V c main_v65) (V c main_v66) (V c main_v67)) (V c main_arg14) (V c main_v68)) := by
  show (cfg2.win 8).cut (grid2.coords t) ((dat2 V c).after 8 t) = _
  rw [after2_8]
  unfold out2_8
  rw [View.canon_unit_zero hz]
  simp only [View.ld_unit_zero (S := S5000x64) hz, View.ld_unit_zero (S := S1x64) hz, View.ld_unit_zero (S := S64x2) hz, View.ld_unit_zero (S := S1x2) hz]
  rw [pay_eq]
  have h := idx t
  funext j
  have hemb : ((cfg2.win 8).blk t).view.emb j = ix2 (row t (j 0)) (j 1) := funext fun a => Fin.ext (by
    match a with
    | ⟨0, _⟩ => show win2_8.index t (0 : Fin 2) * 5000 + 1 * (j 0).val = t.val * 5000 + (j 0).val; omega
    | ⟨1, _⟩ => show win2_8.index t (1 : Fin 2) * 2 + 1 * (j 1).val = (j 1).val; omega)
  show (LibAffine.affine (hidden (iblk2 V c 0 t) (iblk2 V c 1 t) (iblk2 V c 2 t) (iblk2 V c 3 t) (iblk2 V c 4 t) (iblk2 V c 5 t)) (iblk2 V c 6 t) (iblk2 V c 7 t)) j
    = (LibAffine.affine (hidden (V c main_v62) (V c main_v63) (V c main_v64) (V c main_v65) (V c main_v66) (V c main_v67)) (V c main_arg14) (V c main_v68)) (((cfg2.win 8).blk t).view.emb j)
  rw [hemb]
  exact (congrArg (LibAffine.affine (hidden (iblk2 V c 0 t) (iblk2 V c 1 t) (iblk2 V c 2 t) (iblk2 V c 3 t) (iblk2 V c 4 t) (iblk2 V c 5 t)) (iblk2 V c 6 t) (iblk2 V c 7 t)) (eq_ix2 j)).trans
    (affine_block (hidden (V c main_v62) (V c main_v63) (V c main_v64) (V c main_v65) (V c main_v66) (V c main_v67)) (V c main_arg14) (V c main_v68)
        (hidden (iblk2 V c 0 t) (iblk2 V c 1 t) (iblk2 V c 2 t) (iblk2 V c 3 t) (iblk2 V c 4 t) (iblk2 V c 5 t)) (iblk2 V c 6 t) (iblk2 V c 7 t) (row t)
        (hidden_block (V c main_v62) (V c main_v63) (V c main_v64) (V c main_v65) (V c main_v66) (V c main_v67)
        (iblk2 V c 0 t) (iblk2 V c 1 t) (iblk2 V c 2 t) (iblk2 V c 3 t) (iblk2 V c 4 t) (iblk2 V c 5 t) (row t)
        (read_s V c t) (read_b V c t) (read_g V c t) (read_be V c t) (read_m V c t) (read_v V c t)) (read_w V c t) (read_c V c t) (j 0) (j 1))

/-- An index of the result is in point t's block iff each coordinate is in the block's range on its axis. -/
theorem mem_blk (t : Fin cfg2.N) (i : S100000x2.Idx) :
    i ∈ ((cfg2.win 8).blk t).view.set ↔ ∀ a : Fin 2, win2_8.index t a * S5000x2.size a ≤ (i a).val
      ∧ (i a).val < win2_8.index t a * S5000x2.size a + S5000x2.size a := by
  show i ∈ ((View.whole main_v69).slice (win2_8.rect t)).set ↔ _
  rw [View.set_slice_whole, Rect.mem_set_unit]
  exact Iff.rfl

/-- Row r of the result is in the block of point r / 5000. -/
theorem cover (i : S100000x2.Idx) : ∃ t : Fin cfg2.N, (cfg2.win 8).flush t = true ∧ i ∈ ((cfg2.win 8).blk t).view.set := by
  have hi0 : (i 0).val < 100000 := (i 0).isLt
  have hi1 : (i 1).val < 2 := (i 1).isLt
  have ht : (i 0).val / 5000 < cfg2.N := by rw [show cfg2.N = 20 from N_2]; omega
  have h := idx ⟨(i 0).val / 5000, ht⟩
  refine ⟨⟨(i 0).val / 5000, ht⟩, flush2_8 _, ?_⟩
  rw [mem_blk]
  intro a
  match a with
  | ⟨0, _⟩ =>
    show win2_8.index ⟨(i 0).val / 5000, ht⟩ (0 : Fin 2) * 5000 ≤ (i 0).val
      ∧ (i 0).val < win2_8.index ⟨(i 0).val / 5000, ht⟩ (0 : Fin 2) * 5000 + 5000
    have h0 : win2_8.index ⟨(i 0).val / 5000, ht⟩ (0 : Fin 2) = (i 0).val / 5000 := h.2.2.2.2.2.2.2.2.2.2.2.2.2.2.2.2.1
    rw [h0]; omega
  | ⟨1, _⟩ =>
    show win2_8.index ⟨(i 0).val / 5000, ht⟩ (1 : Fin 2) * 2 ≤ (i 1).val
      ∧ (i 1).val < win2_8.index ⟨(i 0).val / 5000, ht⟩ (1 : Fin 2) * 2 + 2
    have h1 : win2_8.index ⟨(i 0).val / 5000, ht⟩ (1 : Fin 2) = 0 := h.2.2.2.2.2.2.2.2.2.2.2.2.2.2.2.2.2
    rw [h1]; omega

/-- THE RESULT of this launch: the layer on the whole feature matrix, of the operands as the launch finds them. -/
theorem result (c : Dev nD) : (dat2 V c).arrAt 8 cfg2.N
    = LibAffine.affine (hidden (V c main_v62) (V c main_v63) (V c main_v64) (V c main_v65) (V c main_v66) (V c main_v67)) (V c main_arg14) (V c main_v68) :=
  (dat2 V c).arrAt_eq_of_cover 8 _ (fun t _ => flushed V c t) cover

end Cert.KernelIdeal.Region2

end
-- ==== Proof.Network.lean ====
/-
  The network as one function of its sixteen arguments, over the extended reals.

  A two-layer graph convolution on 100000 nodes and 1600000 directed edges. Every node gets a self loop, so the edge
  list has 1700000 entries: `row` its sources, `col` its targets. A node's degree is the number of edges that land
  on it; `dinv` is the reciprocal square root of the degree where the degree is positive and 0 elsewhere; an edge's
  weight `norm` is dinv at its source times dinv at its target. Aggregating features h over the graph gathers row
  `row e` of h for each edge e, scales it by the edge's weight, and adds it into row `col e` of the result
  (`aggregate128`, `aggregate64` for the two feature widths). A negative index counts from the end, as the gather's
  lowering has it (`wrap`). The network is then

      aggregate (x · W1)  →  add bias, batch-normalise, positive part, · W2  →  aggregate  →  the same, · fcW + fcb

  with the dense halves the functions of LibNormLayer and LibAffine. The gathers and the scatter-add are kept as the
  host's operations: both programs run the very same ones, so nothing below ever reads them at an index.
-/
import proofs.«140213_j44452911513781_1_alg».proof.Proof.Gen.ReferenceIdeal
import proofs.«140213_j44452911513781_1_alg».proof.Proof.LibNormLayer

noncomputable section

namespace Cert.Network

open Cert.ReferenceIdeal Cert.ReferenceIdeal.Gen Idealize.ShloMosaic Cert.LibNormLayer

/-- The edges' targets, the self loops after them. -/
def col (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The edges' sources, the self loops after them. -/
def row (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- A list of node indices as a gather's index column: a negative index counts from the end. -/
def wrap (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A node's degree: one for every edge landing on it. -/
def deg (e : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (col e)) (broadcastInDim S1700000 ![] bcast_S_S1700000 (constant S_ .f32 0x3F800000#32))

/-- The reciprocal square root of the degree where it is positive, 0 elsewhere. -/
def dinv (e : IVec S2x1600000 32) : FVec Ideal S100000 .f32 :=
  select (cmpf (F := Ideal) .ogt (deg e) (broadcastInDim S100000 ![] bcast_S_S100000 (constant S_ .f32 0x00000000#32))) (Host.rsqrt (deg e)) (broadcastInDim S100000 ![] bcast_S_S100000 (id (constant S_ .f32 0x00000000#32)))

/-- An edge's weight: dinv at its source times dinv at its target. -/
def norm (e : IVec S2x1600000 32) : FVec Ideal S1700000 .f32 :=
  mulf (Host.gather gather_S100000_S1700000x1_S1700000_n_0_n_n_0_1_1 (dinv e) (wrap (row e))) (Host.gather gather_S100000_S1700000x1_S1700000_n_0_n_n_0_1_1 (dinv e) (wrap (col e)))

/-- Aggregation over the graph of 128 features per node. -/
def aggregate128 (h : FVec Ideal S100000x128 .f32) (e : IVec S2x1600000 32) : FVec Ideal S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (col e)) (mulf (Host.gather gather_S100000x128_S1700000x1_S1700000x128_1_0_n_n_0_1_1128 h (wrap (row e))) (broadcastInDim S1700000x128 ![0, 1] bcast_S1700000x1_S1700000x128_0_1 (broadcastInDim S1700000x1 ![0] bcast_S1700000_S1700000x1_0 (norm e))))

/-- Aggregation over the graph of 64 features per node. -/
def aggregate64 (h : FVec Ideal S100000x64 .f32) (e : IVec S2x1600000 32) : FVec Ideal S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (col e)) (mulf (Host.gather gather_S100000x64_S1700000x1_S1700000x64_1_0_n_n_0_1_164 h (wrap (row e))) (broadcastInDim S1700000x64 ![0, 1] bcast_S1700000x1_S1700000x64_0_1 (broadcastInDim S1700000x1 ![0] bcast_S1700000_S1700000x1_0 (norm e))))

/-- A parameter vector as a row. -/
abbrev row128 (x : FVec Ideal S128 .f32) : FVec Ideal S1x128 .f32 := broadcastInDim S1x128 ![1] bcast_S128_S1x128_1 x
abbrev row64 (x : FVec Ideal S64 .f32) : FVec Ideal S1x64 .f32 := broadcastInDim S1x64 ![1] bcast_S64_S1x64_1 x
abbrev row2 (x : FVec Ideal S2 .f32) : FVec Ideal S1x2 .f32 := broadcastInDim S1x2 ![1] bcast_S2_S1x2_1 x

/-- The first layer's output, before the second aggregation. -/
def layer1 (x : FVec Ideal S100000x256 .f32) (e : IVec S2x1600000 32) (W1 : FVec Ideal S256x128 .f32)
    (b1 g1 be1 m1 v1 : FVec Ideal S128 .f32) (W2 : FVec Ideal S128x64 .f32) : FVec Ideal S100000x64 .f32 :=
  dense (hidden (aggregate128 (dense x W1) e) (row128 b1) (row128 g1) (row128 be1) (row128 m1) (row128 v1)) W2

/-- THE NETWORK. -/
def net (x : FVec Ideal S100000x256 .f32) (e : IVec S2x1600000 32) (W1 : FVec Ideal S256x128 .f32)
    (b1 g1 be1 m1 v1 : FVec Ideal S128 .f32) (W2 : FVec Ideal S128x64 .f32) (b2 g2 be2 m2 v2 : FVec Ideal S64 .f32)
    (fcW : FVec Ideal S64x2 .f32) (fcb : FVec Ideal S2 .f32) : FVec Ideal S100000x2 .f32 :=
  LibAffine.affine
    (hidden (aggregate64 (layer1 x e W1 b1 g1 be1 m1 v1 W2) e) (row64 b2) (row64 g2) (row64 be2) (row64 m2) (row64 v2))
    fcW (row2 fcb)

end Cert.Network

end
-- ==== Proof.KernelStages.lean ====
/-
  The idealized kernel computes the network: what each buffer holds at each boundary between the segments of @main.

  @main is: host operations (the edge lists with their self loops, the degrees, the edge weights), the first launch
  (x · W1), host operations (the first aggregation; the layer's parameter vectors reshaped into rows), the second
  launch (the first layer's dense half), host operations (the second aggregation; the second layer's rows), the third
  launch (the second layer's dense half and the final linear map). No host operation and no launch writes an argument,
  the edge lists or the edge weights after they are made, so each is carried to where it is read; each launch's
  output is its layer on the whole matrix (the three launch modules); each aggregation is the network's own. A
  parameter vector reshaped into a row is that vector laid along axis 1 (LibColumnRow).
-/
import proofs.«140213_j44452911513781_1_alg».proof.Proof.Gen.KernelIdeal.Frame
import proofs.«140213_j44452911513781_1_alg».proof.Proof.KernelRegion0
import proofs.«140213_j44452911513781_1_alg».proof.Proof.KernelRegion1
import proofs.«140213_j44452911513781_1_alg».proof.Proof.KernelRegion2
import proofs.«140213_j44452911513781_1_alg».proof.Proof.Network
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Cert.LibNormLayer

variable (m : (ℓ : Loc nD τ sig) → Buf (Elt Ideal) ℓ) (ρ : Dev nD → PrngReg) (c : Dev nD)

/-! ## Before the first launch: the arguments as launched, the edge lists, the edge weights -/

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl
theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl
theorem W3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl
theorem W3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl
theorem W3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp <;> rfl
theorem W3_arg11 : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp <;> rfl
theorem W3_arg12 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  after_results_simp <;> rfl
theorem W3_arg13 : W3 m ρ c (Proc.devRef .tc main_arg13) = (m ((c : Thread nD τ).loc main_arg13)) := by
  show StableHlo.after hostOps0_2 (StableHlo.after hostOps0_1 (StableHlo.after hostOps0 (W0 m ρ c))) (Proc.devRef .tc main_arg13) = _
  after_results_simp <;> rfl
theorem W3_arg14 : W3 m ρ c (Proc.devRef .tc main_arg14) = (m ((c : Thread nD τ).loc main_arg14)) := by
  show StableHlo.after hostOps0_2 (StableHlo.after hostOps0_1 (StableHlo.after hostOps0 (W0 m ρ c))) (Proc.devRef .tc main_arg14) = _
  after_results_simp <;> rfl
theorem W3_arg15 : W3 m ρ c (Proc.devRef .tc main_arg15) = (m ((c : Thread nD τ).loc main_arg15)) := by
  show StableHlo.after hostOps0_2 (StableHlo.after hostOps0_1 (StableHlo.after hostOps0 (W0 m ρ c))) (Proc.devRef .tc main_arg15) = _
  after_results_simp <;> rfl

/-- The edges' sources with the self loops. -/
theorem W3_row : W3 m ρ c (Proc.devRef .tc main_v3) = Network.row (m ((c : Thread nD τ).loc main_arg1)) := by
  show StableHlo.after hostOps0_2 (StableHlo.after hostOps0_1 (StableHlo.after hostOps0 (W0 m ρ c))) (Proc.devRef .tc main_v3) = _
  after_results_simp <;> rfl

/-- The edges' targets with the self loops. -/
theorem W3_col : W3 m ρ c (Proc.devRef .tc main_v6) = Network.col (m ((c : Thread nD τ).loc main_arg1)) := by
  show StableHlo.after hostOps0_2 (StableHlo.after hostOps0_1 (StableHlo.after hostOps0 (W0 m ρ c))) (Proc.devRef .tc main_v6) = _
  after_results_simp <;> rfl

/-! ### The degrees, their reciprocal roots and the edge weights, one stretch at a time

  Each later stretch is read from the contents it starts from as a VARIABLE, and what it reads there is rewritten by
  the facts of the stretch before: the edge lists are then never expanded inside a later term. -/

/-- After the first stretch: the edges' sources. -/
theorem W1_row : W1 m ρ c (Proc.devRef .tc main_v3) = Network.row (m ((c : Thread nD τ).loc main_arg1)) := by
  show StableHlo.after hostOps0 (W0 m ρ c) (Proc.devRef .tc main_v3) = _
  after_results_simp <;> rfl

/-- After the first stretch: the edges' targets. -/
theorem W1_col : W1 m ρ c (Proc.devRef .tc main_v6) = Network.col (m ((c : Thread nD τ).loc main_arg1)) := by
  show StableHlo.after hostOps0 (W0 m ρ c) (Proc.devRef .tc main_v6) = _
  after_results_simp <;> rfl

/-- After the first stretch: where the degree is positive. -/
theorem W1_pos : W1 m ρ c (Proc.devRef .tc main_v12)
    = cmpf (F := Ideal) .ogt (Network.deg (m ((c : Thread nD τ).loc main_arg1))) (broadcastInDim Cert.ReferenceIdeal.S100000 ![] Cert.ReferenceIdeal.Gen.bcast_S_S100000 (constant Cert.ReferenceIdeal.S_ .f32 0x00000000#32)) := by
  show StableHlo.after hostOps0 (W0 m ρ c) (Proc.devRef .tc main_v12) = _
  after_results_simp <;> rfl

/-- After the first stretch: the reciprocal root of the degree. -/
theorem W1_rsqrt : W1 m ρ c (Proc.devRef .tc main_v13) = Host.rsqrt (Network.deg (m ((c : Thread nD τ).loc main_arg1))) := by
  show StableHlo.after hostOps0 (W0 m ρ c) (Proc.devRef .tc main_v13) = _
  after_results_simp <;> rfl

/-- After the first stretch: the zero that stands where the degree is not positive. -/
theorem W1_zero : W1 m ρ c (Proc.devRef .tc main_cst_2) = constant (F := Ideal) Cert.ReferenceIdeal.S_ .f32 0x00000000#32 := by
  show StableHlo.after hostOps0 (W0 m ρ c) (Proc.devRef .tc main_cst_2) = _
  after_results_simp <;> rfl

/-- The second stretch, from any contents: it selects, by the mask it finds, between what it finds in the reciprocal
    root's buffer and the zero it finds, laid over the nodes. -/
theorem where_result (G : Valuation τ sig (Elt Ideal)) :
    StableHlo.after hostOps0_1 G (Proc.devRef .tc main_v14)
      = select (G (Proc.devRef .tc main_v12)) (G (Proc.devRef .tc main_v13)) (broadcastInDim S100000 ![] bcast_S_S100000 (id (G (Proc.devRef .tc main_cst_2)))) := by
  after_results_simp <;> rfl

/-- After the second stretch: the reciprocal root of the degree where it is positive, 0 elsewhere. -/
theorem W2_dinv : W2 m ρ c (Proc.devRef .tc main_v14) = Network.dinv (m ((c : Thread nD τ).loc main_arg1)) := by
  show StableHlo.after hostOps0_1 (W1 m ρ c) (Proc.devRef .tc main_v14) = _
  rw [where_result, W1_pos, W1_rsqrt, W1_zero]
  rfl

/-- The second stretch leaves the edge lists alone. -/
theorem W2_row : W2 m ρ c (Proc.devRef .tc main_v3) = Network.row (m ((c : Thread nD τ).loc main_arg1)) := by
  have h1 := W1_row m ρ c
  show StableHlo.after hostOps0_1 (W1 m ρ c) (Proc.devRef .tc main_v3) = _
  generalize W1 m ρ c = G at h1 ⊢
  after_results_simp
  exact h1

theorem W2_col : W2 m ρ c (Proc.devRef .tc main_v6) = Network.col (m ((c : Thread nD τ).loc main_arg1)) := by
  have h1 := W1_col m ρ c
  show StableHlo.after hostOps0_1 (W1 m ρ c) (Proc.devRef .tc main_v6) = _
  generalize W1 m ρ c = G at h1 ⊢
  after_results_simp
  exact h1

/-- After the third stretch: the edge weights. -/
theorem W3_norm : W3 m ρ c (Proc.devRef .tc main_v29) = Network.norm (m ((c : Thread nD τ).loc main_arg1)) := by
  have h1 := W2_dinv m ρ c
  have h2 := W2_row m ρ c
  have h3 := W2_col m ρ c
  show StableHlo.after hostOps0_2 (W2 m ρ c) (Proc.devRef .tc main_v29) = _
  generalize W2 m ρ c = G at h1 h2 h3 ⊢
  after_results_simp
  rw [h1, h2, h3]
  rfl

/-! ## Carried across the first launch and the stretch after it -/

theorem W4_main_arg3 : W4 m ρ c (Proc.devRef .tc main_arg3) = W3 m ρ c (Proc.devRef .tc main_arg3) := W4_of_ne m ρ c main_arg3 (by decide)
theorem W4_main_arg4 : W4 m ρ c (Proc.devRef .tc main_arg4) = W3 m ρ c (Proc.devRef .tc main_arg4) := W4_of_ne m ρ c main_arg4 (by decide)
theorem W4_main_arg5 : W4 m ρ c (Proc.devRef .tc main_arg5) = W3 m ρ c (Proc.devRef .tc main_arg5) := W4_of_ne m ρ c main_arg5 (by decide)
theorem W4_main_arg6 : W4 m ρ c (Proc.devRef .tc main_arg6) = W3 m ρ c (Proc.devRef .tc main_arg6) := W4_of_ne m ρ c main_arg6 (by decide)
theorem W4_main_arg7 : W4 m ρ c (Proc.devRef .tc main_arg7) = W3 m ρ c (Proc.devRef .tc main_arg7) := W4_of_ne m ρ c main_arg7 (by decide)
theorem W4_main_arg8 : W4 m ρ c (Proc.devRef .tc main_arg8) = W3 m ρ c (Proc.devRef .tc main_arg8) := W4_of_ne m ρ c main_arg8 (by decide)
theorem W4_main_arg9 : W4 m ρ c (Proc.devRef .tc main_arg9) = W3 m ρ c (Proc.devRef .tc main_arg9) := W4_of_ne m ρ c main_arg9 (by decide)
theorem W4_main_arg10 : W4 m ρ c (Proc.devRef .tc main_arg10) = W3 m ρ c (Proc.devRef .tc main_arg10) := W4_of_ne m ρ c main_arg10 (by decide)
theorem W4_main_arg11 : W4 m ρ c (Proc.devRef .tc main_arg11) = W3 m ρ c (Proc.devRef .tc main_arg11) := W4_of_ne m ρ c main_arg11 (by decide)
theorem W4_main_arg12 : W4 m ρ c (Proc.devRef .tc main_arg12) = W3 m ρ c (Proc.devRef .tc main_arg12) := W4_of_ne m ρ c main_arg12 (by decide)
theorem W4_main_arg13 : W4 m ρ c (Proc.devRef .tc main_arg13) = W3 m ρ c (Proc.devRef .tc main_arg13) := W4_of_ne m ρ c main_arg13 (by decide)
theorem W4_main_arg14 : W4 m ρ c (Proc.devRef .tc main_arg14) = W3 m ρ c (Proc.devRef .tc main_arg14) := W4_of_ne m ρ c main_arg14 (by decide)
theorem W4_main_arg15 : W4 m ρ c (Proc.devRef .tc main_arg15) = W3 m ρ c (Proc.devRef .tc main_arg15) := W4_of_ne m ρ c main_arg15 (by decide)
theorem W4_main_v3 : W4 m ρ c (Proc.devRef .tc main_v3) = W3 m ρ c (Proc.devRef .tc main_v3) := W4_of_ne m ρ c main_v3 (by decide)
theorem W4_main_v6 : W4 m ρ c (Proc.devRef .tc main_v6) = W3 m ρ c (Proc.devRef .tc main_v6) := W4_of_ne m ρ c main_v6 (by decide)
theorem W4_main_v29 : W4 m ρ c (Proc.devRef .tc main_v29) = W3 m ρ c (Proc.devRef .tc main_v29) := W4_of_ne m ρ c main_v29 (by decide)
theorem W5_main_arg8 : W5 m ρ c (Proc.devRef .tc main_arg8) = W4 m ρ c (Proc.devRef .tc main_arg8) := by
  show StableHlo.after hostOps1 (W4 m ρ c) (Proc.devRef .tc main_arg8) = _
  after_results_simp
theorem W5_main_arg9 : W5 m ρ c (Proc.devRef .tc main_arg9) = W4 m ρ c (Proc.devRef .tc main_arg9) := by
  show StableHlo.after hostOps1 (W4 m ρ c) (Proc.devRef .tc main_arg9) = _
  after_results_simp
theorem W5_main_arg10 : W5 m ρ c (Proc.devRef .tc main_arg10) = W4 m ρ c (Proc.devRef .tc main_arg10) := by
  show StableHlo.after hostOps1 (W4 m ρ c) (Proc.devRef .tc main_arg10) = _
  after_results_simp
theorem W5_main_arg11 : W5 m ρ c (Proc.devRef .tc main_arg11) = W4 m ρ c (Proc.devRef .tc main_arg11) := by
  show StableHlo.after hostOps1 (W4 m ρ c) (Proc.devRef .tc main_arg11) = _
  after_results_simp
theorem W5_main_arg12 : W5 m ρ c (Proc.devRef .tc main_arg12) = W4 m ρ c (Proc.devRef .tc main_arg12) := by
  show StableHlo.after hostOps1 (W4 m ρ c) (Proc.devRef .tc main_arg12) = _
  after_results_simp
theorem W5_main_arg13 : W5 m ρ c (Proc.devRef .tc main_arg13) = W4 m ρ c (Proc.devRef .tc main_arg13) := by
  show StableHlo.after hostOps1 (W4 m ρ c) (Proc.devRef .tc main_arg13) = _
  after_results_simp
theorem W5_main_arg14 : W5 m ρ c (Proc.devRef .tc main_arg14) = W4 m ρ c (Proc.devRef .tc main_arg14) := by
  show StableHlo.after hostOps1 (W4 m ρ c) (Proc.devRef .tc main_arg14) = _
  after_results_simp
theorem W5_main_arg15 : W5 m ρ c (Proc.devRef .tc main_arg15) = W4 m ρ c (Proc.devRef .tc main_arg15) := by
  show StableHlo.after hostOps1 (W4 m ρ c) (Proc.devRef .tc main_arg15) = _
  after_results_simp
theorem W5_main_v3 : W5 m ρ c (Proc.devRef .tc main_v3) = W4 m ρ c (Proc.devRef .tc main_v3) := by
  show StableHlo.after hostOps1 (W4 m ρ c) (Proc.devRef .tc main_v3) = _
  after_results_simp
theorem W5_main_v6 : W5 m ρ c (Proc.devRef .tc main_v6) = W4 m ρ c (Proc.devRef .tc main_v6) := by
  show StableHlo.after hostOps1 (W4 m ρ c) (Proc.devRef .tc main_v6) = _
  after_results_simp
theorem W5_main_v29 : W5 m ρ c (Proc.devRef .tc main_v29) = W4 m ρ c (Proc.devRef .tc main_v29) := by
  show StableHlo.after hostOps1 (W4 m ρ c) (Proc.devRef .tc main_v29) = _
  after_results_simp
theorem W6_main_arg9 : W6 m ρ c (Proc.devRef .tc main_arg9) = W5 m ρ c (Proc.devRef .tc main_arg9) := W6_of_ne m ρ c main_arg9 (by decide)
theorem W6_main_arg10 : W6 m ρ c (Proc.devRef .tc main_arg10) = W5 m ρ c (Proc.devRef .tc main_arg10) := W6_of_ne m ρ c main_arg10 (by decide)
theorem W6_main_arg11 : W6 m ρ c (Proc.devRef .tc main_arg11) = W5 m ρ c (Proc.devRef .tc main_arg11) := W6_of_ne m ρ c main_arg11 (by decide)
theorem W6_main_arg12 : W6 m ρ c (Proc.devRef .tc main_arg12) = W5 m ρ c (Proc.devRef .tc main_arg12) := W6_of_ne m ρ c main_arg12 (by decide)
theorem W6_main_arg13 : W6 m ρ c (Proc.devRef .tc main_arg13) = W5 m ρ c (Proc.devRef .tc main_arg13) := W6_of_ne m ρ c main_arg13 (by decide)
theorem W6_main_arg14 : W6 m ρ c (Proc.devRef .tc main_arg14) = W5 m ρ c (Proc.devRef .tc main_arg14) := W6_of_ne m ρ c main_arg14 (by decide)
theorem W6_main_arg15 : W6 m ρ c (Proc.devRef .tc main_arg15) = W5 m ρ c (Proc.devRef .tc main_arg15) := W6_of_ne m ρ c main_arg15 (by decide)
theorem W6_main_v3 : W6 m ρ c (Proc.devRef .tc main_v3) = W5 m ρ c (Proc.devRef .tc main_v3) := W6_of_ne m ρ c main_v3 (by decide)
theorem W6_main_v6 : W6 m ρ c (Proc.devRef .tc main_v6) = W5 m ρ c (Proc.devRef .tc main_v6) := W6_of_ne m ρ c main_v6 (by decide)
theorem W6_main_v29 : W6 m ρ c (Proc.devRef .tc main_v29) = W5 m ρ c (Proc.devRef .tc main_v29) := W6_of_ne m ρ c main_v29 (by decide)

/-! ## What is read after the first launch -/

theorem at4_arg3 : W4 m ρ c (Proc.devRef .tc main_arg3) = (m ((c : Thread nD τ).loc main_arg3)) := (W4_main_arg3 m ρ c).trans (W3_arg3 m ρ c)
theorem at4_arg4 : W4 m ρ c (Proc.devRef .tc main_arg4) = (m ((c : Thread nD τ).loc main_arg4)) := (W4_main_arg4 m ρ c).trans (W3_arg4 m ρ c)
theorem at4_arg5 : W4 m ρ c (Proc.devRef .tc main_arg5) = (m ((c : Thread nD τ).loc main_arg5)) := (W4_main_arg5 m ρ c).trans (W3_arg5 m ρ c)
theorem at4_arg6 : W4 m ρ c (Proc.devRef .tc main_arg6) = (m ((c : Thread nD τ).loc main_arg6)) := (W4_main_arg6 m ρ c).trans (W3_arg6 m ρ c)
theorem at4_arg7 : W4 m ρ c (Proc.devRef .tc main_arg7) = (m ((c : Thread nD τ).loc main_arg7)) := (W4_main_arg7 m ρ c).trans (W3_arg7 m ρ c)
theorem at4_arg8 : W4 m ρ c (Proc.devRef .tc main_arg8) = (m ((c : Thread nD τ).loc main_arg8)) := (W4_main_arg8 m ρ c).trans (W3_arg8 m ρ c)
theorem at4_row : W4 m ρ c (Proc.devRef .tc main_v3) = Network.row (m ((c : Thread nD τ).loc main_arg1)) := (W4_main_v3 m ρ c).trans (W3_row m ρ c)
theorem at4_col : W4 m ρ c (Proc.devRef .tc main_v6) = Network.col (m ((c : Thread nD τ).loc main_arg1)) := (W4_main_v6 m ρ c).trans (W3_col m ρ c)
theorem at4_norm : W4 m ρ c (Proc.devRef .tc main_v29) = Network.norm (m ((c : Thread nD τ).loc main_arg1)) := (W4_main_v29 m ρ c).trans (W3_norm m ρ c)

/-- THE FIRST LAUNCH leaves x · W1. -/
theorem out0 : W4 m ρ c (Proc.devRef .tc main_v30) = dense (m ((c : Thread nD τ).loc main_arg0)) (m ((c : Thread nD τ).loc main_arg2)) := by
  refine (W4_arr m ρ c 2).trans ((Region0.result (V3 m ρ) c).trans ?_)
  show dense (W3 m ρ c (Proc.devRef .tc main_arg0)) (W3 m ρ c (Proc.devRef .tc main_arg2)) = _
  rw [W3_arg0, W3_arg2]

/-- The first aggregation. -/
theorem in1 : W5 m ρ c (Proc.devRef .tc main_v43) = Network.aggregate128 (dense (m ((c : Thread nD τ).loc main_arg0)) (m ((c : Thread nD τ).loc main_arg2))) (m ((c : Thread nD τ).loc main_arg1)) := by
  show StableHlo.after hostOps1 (W4 m ρ c) (Proc.devRef .tc main_v43) = _
  after_results_simp
  rw [out0, at4_row, at4_col, at4_norm]
  rfl

theorem row1_main_v44 : W5 m ρ c (Proc.devRef .tc main_v44) = Network.row128 (m ((c : Thread nD τ).loc main_arg3)) := by
  show StableHlo.after hostOps1 (W4 m ρ c) (Proc.devRef .tc main_v44) = _
  after_results_simp
  rw [at4_arg3]
  exact LibColumnRow.shapeCast_row_eq_broadcastInDim _ _ _
theorem row1_main_v45 : W5 m ρ c (Proc.devRef .tc main_v45) = Network.row128 (m ((c : Thread nD τ).loc main_arg4)) := by
  show StableHlo.after hostOps1 (W4 m ρ c) (Proc.devRef .tc main_v45) = _
  after_results_simp
  rw [at4_arg4]
  exact LibColumnRow.shapeCast_row_eq_broadcastInDim _ _ _
theorem row1_main_v46 : W5 m ρ c (Proc.devRef .tc main_v46) = Network.row128 (m ((c : Thread nD τ).loc main_arg5)) := by
  show StableHlo.after hostOps1 (W4 m ρ c) (Proc.devRef .tc main_v46) = _
  after_results_simp
  rw [at4_arg5]
  exact LibColumnRow.shapeCast_row_eq_broadcastInDim _ _ _
theorem row1_main_v47 : W5 m ρ c (Proc.devRef .tc main_v47) = Network.row128 (m ((c : Thread nD τ).loc main_arg6)) := by
  show StableHlo.after hostOps1 (W4 m ρ c) (Proc.devRef .tc main_v47) = _
  after_results_simp
  rw [at4_arg6]
  exact LibColumnRow.shapeCast_row_eq_broadcastInDim _ _ _
theorem row1_main_v48 : W5 m ρ c (Proc.devRef .tc main_v48) = Network.row128 (m ((c : Thread nD τ).loc main_arg7)) := by
  show StableHlo.after hostOps1 (W4 m ρ c) (Proc.devRef .tc main_v48) = _
  after_results_simp
  rw [at4_arg7]
  exact LibColumnRow.shapeCast_row_eq_broadcastInDim _ _ _

theorem at5_arg8 : W5 m ρ c (Proc.devRef .tc main_arg8) = (m ((c : Thread nD τ).loc main_arg8)) := (W5_main_arg8 m ρ c).trans (at4_arg8 m ρ c)

/-- THE SECOND LAUNCH leaves the first layer's output. -/
theorem out1 : W6 m ρ c (Proc.devRef .tc main_v49)
    = Network.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 7).trans ((Region1.result (V5 m ρ) c).trans ?_)
  show dense (hidden (W5 m ρ c (Proc.devRef .tc main_v43)) (W5 m ρ c (Proc.devRef .tc main_v44)) (W5 m ρ c (Proc.devRef .tc main_v45)) (W5 m ρ c (Proc.devRef .tc main_v46))
      (W5 m ρ c (Proc.devRef .tc main_v47)) (W5 m ρ c (Proc.devRef .tc main_v48))) (W5 m ρ c (Proc.devRef .tc main_arg8)) = _
  rw [in1, row1_main_v44, row1_main_v45, row1_main_v46, row1_main_v47, row1_main_v48, at5_arg8]
  rfl

/-! ## What is read after the second launch -/

theorem at6_arg9 : W6 m ρ c (Proc.devRef .tc main_arg9) = (m ((c : Thread nD τ).loc main_arg9)) :=
  (W6_main_arg9 m ρ c).trans ((W5_main_arg9 m ρ c).trans ((W4_main_arg9 m ρ c).trans (W3_arg9 m ρ c)))
theorem at6_arg10 : W6 m ρ c (Proc.devRef .tc main_arg10) = (m ((c : Thread nD τ).loc main_arg10)) :=
  (W6_main_arg10 m ρ c).trans ((W5_main_arg10 m ρ c).trans ((W4_main_arg10 m ρ c).trans (W3_arg10 m ρ c)))
theorem at6_arg11 : W6 m ρ c (Proc.devRef .tc main_arg11) = (m ((c : Thread nD τ).loc main_arg11)) :=
  (W6_main_arg11 m ρ c).trans ((W5_main_arg11 m ρ c).trans ((W4_main_arg11 m ρ c).trans (W3_arg11 m ρ c)))
theorem at6_arg12 : W6 m ρ c (Proc.devRef .tc main_arg12) = (m ((c : Thread nD τ).loc main_arg12)) :=
  (W6_main_arg12 m ρ c).trans ((W5_main_arg12 m ρ c).trans ((W4_main_arg12 m ρ c).trans (W3_arg12 m ρ c)))
theorem at6_arg13 : W6 m ρ c (Proc.devRef .tc main_arg13) = (m ((c : Thread nD τ).loc main_arg13)) :=
  (W6_main_arg13 m ρ c).trans ((W5_main_arg13 m ρ c).trans ((W4_main_arg13 m ρ c).trans (W3_arg13 m ρ c)))
theorem at6_arg14 : W6 m ρ c (Proc.devRef .tc main_arg14) = (m ((c : Thread nD τ).loc main_arg14)) :=
  (W6_main_arg14 m ρ c).trans ((W5_main_arg14 m ρ c).trans ((W4_main_arg14 m ρ c).trans (W3_arg14 m ρ c)))
theorem at6_arg15 : W6 m ρ c (Proc.devRef .tc main_arg15) = (m ((c : Thread nD τ).loc main_arg15)) :=
  (W6_main_arg15 m ρ c).trans ((W5_main_arg15 m ρ c).trans ((W4_main_arg15 m ρ c).trans (W3_arg15 m ρ c)))
theorem at6_row : W6 m ρ c (Proc.devRef .tc main_v3) = Network.row (m ((c : Thread nD τ).loc main_arg1)) := (W6_main_v3 m ρ c).trans ((W5_main_v3 m ρ c).trans (at4_row m ρ c))
theorem at6_col : W6 m ρ c (Proc.devRef .tc main_v6) = Network.col (m ((c : Thread nD τ).loc main_arg1)) := (W6_main_v6 m ρ c).trans ((W5_main_v6 m ρ c).trans (at4_col m ρ c))
theorem at6_norm : W6 m ρ c (Proc.devRef .tc main_v29) = Network.norm (m ((c : Thread nD τ).loc main_arg1)) := (W6_main_v29 m ρ c).trans ((W5_main_v29 m ρ c).trans (at4_norm m ρ c))

/-- The second aggregation. -/
theorem in2 : W7 m ρ c (Proc.devRef .tc main_v62)
    = Network.aggregate64 (Network.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) := by
  show StableHlo.after hostOps2 (W6 m ρ c) (Proc.devRef .tc main_v62) = _
  after_results_simp
  rw [out1, at6_row, at6_col, at6_norm]
  rfl

theorem row2_main_v63 : W7 m ρ c (Proc.devRef .tc main_v63) = Network.row64 (m ((c : Thread nD τ).loc main_arg9)) := by
  show StableHlo.after hostOps2 (W6 m ρ c) (Proc.devRef .tc main_v63) = _
  after_results_simp
  rw [at6_arg9]
  exact LibColumnRow.shapeCast_row_eq_broadcastInDim _ _ _
theorem row2_main_v64 : W7 m ρ c (Proc.devRef .tc main_v64) = Network.row64 (m ((c : Thread nD τ).loc main_arg10)) := by
  show StableHlo.after hostOps2 (W6 m ρ c) (Proc.devRef .tc main_v64) = _
  after_results_simp
  rw [at6_arg10]
  exact LibColumnRow.shapeCast_row_eq_broadcastInDim _ _ _
theorem row2_main_v65 : W7 m ρ c (Proc.devRef .tc main_v65) = Network.row64 (m ((c : Thread nD τ).loc main_arg11)) := by
  show StableHlo.after hostOps2 (W6 m ρ c) (Proc.devRef .tc main_v65) = _
  after_results_simp
  rw [at6_arg11]
  exact LibColumnRow.shapeCast_row_eq_broadcastInDim _ _ _
theorem row2_main_v66 : W7 m ρ c (Proc.devRef .tc main_v66) = Network.row64 (m ((c : Thread nD τ).loc main_arg12)) := by
  show StableHlo.after hostOps2 (W6 m ρ c) (Proc.devRef .tc main_v66) = _
  after_results_simp
  rw [at6_arg12]
  exact LibColumnRow.shapeCast_row_eq_broadcastInDim _ _ _
theorem row2_main_v67 : W7 m ρ c (Proc.devRef .tc main_v67) = Network.row64 (m ((c : Thread nD τ).loc main_arg13)) := by
  show StableHlo.after hostOps2 (W6 m ρ c) (Proc.devRef .tc main_v67) = _
  after_results_simp
  rw [at6_arg13]
  exact LibColumnRow.shapeCast_row_eq_broadcastInDim _ _ _
theorem row2_main_v68 : W7 m ρ c (Proc.devRef .tc main_v68) = Network.row2 (m ((c : Thread nD τ).loc main_arg15)) := by
  show StableHlo.after hostOps2 (W6 m ρ c) (Proc.devRef .tc main_v68) = _
  after_results_simp
  rw [at6_arg15]
  exact LibColumnRow.shapeCast_row_eq_broadcastInDim _ _ _

theorem at7_arg14 : W7 m ρ c (Proc.devRef .tc main_arg14) = (m ((c : Thread nD τ).loc main_arg14)) := by
  refine Eq.trans ?_ (at6_arg14 m ρ c)
  show StableHlo.after hostOps2 (W6 m ρ c) (Proc.devRef .tc main_arg14) = _
  after_results_simp

/-- THE THIRD LAUNCH leaves the network's result. -/
theorem out2 : W8 m ρ c (Proc.devRef .tc main_v69)
    = Network.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 8).trans ((Region2.result (V7 m ρ) c).trans ?_)
  show LibAffine.affine (hidden (W7 m ρ c (Proc.devRef .tc main_v62)) (W7 m ρ c (Proc.devRef .tc main_v63)) (W7 m ρ c (Proc.devRef .tc main_v64)) (W7 m ρ c (Proc.devRef .tc main_v65))
      (W7 m ρ c (Proc.devRef .tc main_v66)) (W7 m ρ c (Proc.devRef .tc main_v67))) (W7 m ρ c (Proc.devRef .tc main_arg14)) (W7 m ρ c (Proc.devRef .tc main_v68)) = _
  rw [in2, row2_main_v63, row2_main_v64, row2_main_v65, row2_main_v66, row2_main_v67, row2_main_v68, at7_arg14]
  rfl

end Cert.KernelIdeal.Stages

end
-- ==== Proof.ReferenceDots.lean ====
/-
  The reference's three matrix products, each on the whole node set: [100000, 256] × [256, 128], [100000, 128] × [128, 64]
  and [100000, 64] × [64, 2]. Each contracts the left operand's columns against the right operand's rows; said of a
  product's dimension record, that is four facts: the left index of result entry i at contraction position q is
  (i 0, q), the right index is (q, i 1), and the contraction has one axis of the inner extent.
-/
import proofs.«140213_j44452911513781_1_alg».proof.Proof.Gen.ReferenceIdeal
import Idealize.ShloMosaic.Lib.ValueIdx

namespace Cert.ReferenceIdeal.Dots

open Cert.ReferenceIdeal Idealize.ShloMosaic

theorem d0_rank : dot_S100000x256_S256x128_S100000x128_1_0_0_1_n_n.contr.rank = 1 := rfl
theorem d0_size : dot_S100000x256_S256x128_S100000x128_1_0_0_1_n_n.contr.size ⟨0, by decide⟩ = 256 := rfl
theorem d0_l0 (i) (q : dot_S100000x256_S256x128_S100000x128_1_0_0_1_n_n.contr.Idx) : (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem d0_l1 (i) (q : dot_S100000x256_S256x128_S100000x128_1_0_0_1_n_n.contr.Idx) : (dot_S100000x256_S256x128_S100000x128_1_0_0_1_n_n.lhsIdx i q 1).val = (q ⟨0, by decide⟩).val :=
  dot_S100000x256_S256x128_S100000x128_1_0_0_1_n_n.lhsIdx_val_of_single rfl i q
theorem d0_r0 (i) (q : dot_S100000x256_S256x128_S100000x128_1_0_0_1_n_n.contr.Idx) : (dot_S100000x256_S256x128_S100000x128_1_0_0_1_n_n.rhsIdx i q 0).val = (q ⟨0, by decide⟩).val :=
  dot_S100000x256_S256x128_S100000x128_1_0_0_1_n_n.rhsIdx_val_of_single rfl i q
theorem d0_r1 (i) (q : dot_S100000x256_S256x128_S100000x128_1_0_0_1_n_n.contr.Idx) : (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

theorem d1_rank : dot_S100000x128_S128x64_S100000x64_1_0_0_1_n_n.contr.rank = 1 := rfl
theorem d1_size : dot_S100000x128_S128x64_S100000x64_1_0_0_1_n_n.contr.size ⟨0, by decide⟩ = 128 := rfl
theorem d1_l0 (i) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem d1_l1 (i) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem d1_r0 (i) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem d1_r1 (i) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

theorem d2_rank : dot_S100000x64_S64x2_S100000x2_1_0_0_1_n_n.contr.rank = 1 := rfl
theorem d2_size : dot_S100000x64_S64x2_S100000x2_1_0_0_1_n_n.contr.size ⟨0, by decide⟩ = 64 := rfl
theorem d2_l0 (i) (q : dot_S100000x64_S64x2_S100000x2_1_0_0_1_n_n.contr.Idx) : (dot_S100000x64_S64x2_S100000x2_1_0_0_1_n_n.lhsIdx i q 0).val = (i 0).val := by
  unfold DotDims.lhsIdx
  rw [dif_neg (show ¬(0 : Fin S100000x64.rank) ∈ dot_S100000x64_S64x2_S100000x2_1_0_0_1_n_n.lhsBatch by decide), dif_pos (show (0 : Fin S100000x64.rank) ∈ dot_S100000x64_S64x2_S100000x2_1_0_0_1_n_n.lhsNonContracting by decide)]
  rfl
theorem d2_l1 (i) (q : dot_S100000x64_S64x2_S100000x2_1_0_0_1_n_n.contr.Idx) : (dot_S100000x64_S64x2_S100000x2_1_0_0_1_n_n.lhsIdx i q 1).val = (q ⟨0, by decide⟩).val :=
  dot_S100000x64_S64x2_S100000x2_1_0_0_1_n_n.lhsIdx_val_of_single rfl i q
theorem d2_r0 (i) (q : dot_S100000x64_S64x2_S100000x2_1_0_0_1_n_n.contr.Idx) : (dot_S100000x64_S64x2_S100000x2_1_0_0_1_n_n.rhsIdx i q 0).val = (q ⟨0, by decide⟩).val :=
  dot_S100000x64_S64x2_S100000x2_1_0_0_1_n_n.rhsIdx_val_of_single rfl i q
theorem d2_r1 (i) (q : dot_S100000x64_S64x2_S100000x2_1_0_0_1_n_n.contr.Idx) : (dot_S100000x64_S64x2_S100000x2_1_0_0_1_n_n.rhsIdx i q 1).val = (i 1).val := by
  unfold DotDims.rhsIdx
  rw [dif_neg (show ¬(1 : Fin S64x2.rank) ∈ dot_S100000x64_S64x2_S100000x2_1_0_0_1_n_n.rhsBatch by decide), dif_pos (show (1 : Fin S64x2.rank) ∈ dot_S100000x64_S64x2_S100000x2_1_0_0_1_n_n.rhsNonContracting by decide)]
  rfl

end Cert.ReferenceIdeal.Dots
-- ==== Proof.ReferenceValue.lean ====
/-
  The reference computes the network.

  The reference's result, as its run states it, is one term: the host's operations composed, from the arguments'
  launch contents. Its three dense layers are spelt there with whole-array operations — each parameter vector laid
  into a row and then along every row of the feature matrix, the host's plain products — and each is the layer of
  LibNormLayer (the last with its bias row, LibAffine's); the graph operations between them are the network's own.
-/
import proofs.«140213_j44452911513781_1_alg».proof.Proof.ReferenceRun
import proofs.«140213_j44452911513781_1_alg».proof.Proof.ReferenceDots
import proofs.«140213_j44452911513781_1_alg».proof.Proof.Network

set_option maxRecDepth 16384

noncomputable section

namespace Cert.ReferenceIdeal.RefValue

open Cert.ReferenceIdeal Cert.ReferenceIdeal.Gen Idealize.ShloMosaic Idealize.ShloMosaic.TcCoe Idealize.SL.Sem Cert.LibNormLayer Cert.Network

/-- The reference's result term is the network of the arguments' launch contents. -/
theorem res_eq (m : (ℓ : Loc nD τ sig) → Buf (Elt Ideal) ℓ) (c : Dev nD) :
    ValueP.res_main_v122 (F := Ideal) m c = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold ValueP.res_main_v122
  rw [LibAffine.hostAffine_eq dot_S100000x64_S64x2_S100000x2_1_0_0_1_n_n Dots.d2_rank Dots.d2_size Dots.d2_l0 Dots.d2_l1 Dots.d2_r0
      Dots.d2_r1 bcast_S1x2_S100000x2_0_1 none,
    hostHidden_eq (a := 100000) (k := 64) bcast_S1x64_S100000x64_0_1 bcast_S64_S1x64_1 bcast_S_S64 bcast_S_S100000x64,
    hostDense_eq dot_S100000x128_S128x64_S100000x64_1_0_0_1_n_n Dots.d1_rank Dots.d1_size Dots.d1_l0 Dots.d1_l1 Dots.d1_r0
      Dots.d1_r1 none,
    hostHidden_eq (a := 100000) (k := 128) bcast_S1x128_S100000x128_0_1 bcast_S128_S1x128_1 bcast_S_S128 bcast_S_S100000x128,
    hostDense_eq dot_S100000x256_S256x128_S100000x128_1_0_0_1_n_n Dots.d0_rank Dots.d0_size Dots.d0_l0 Dots.d0_l1 Dots.d0_r0
      Dots.d0_r1 none]
  rfl

end Cert.ReferenceIdeal.RefValue

end
-- ==== Proof.lean ====
/-
  The certificate of a two-layer graph convolution on 100000 nodes and 1600000 edges, as three core launches among host
  operations, against the same network written with whole-array operations.

  Both programs compute
      aggregate (x · W1) → + b1, batch-normalise, positive part, · W2 → aggregate → + b2, batch-normalise, positive part, · fcW + fcb,
  where aggregation gathers each edge's source row, scales it by the edge's weight (the reciprocal root of the source's
  degree times that of the target's, self loops counted) and adds it into the target's row. The graph operations are
  literally the same host operations in both programs. The dense halves differ only in arrangement: the kernel works on
  twenty blocks of 5000 rows, with each parameter vector reshaped into a row and broadcast inside the core and with a
  matrix-unit product of operands narrowed to another float format into a zero accumulator; the reference works on the
  whole matrix, with each parameter vector laid along the rows by broadcasts and the host's plain product. On the
  extended reals a change of format is the identity and both products are the same sums, a row of a layer reads only
  that row of its input, and the twenty blocks fill the matrix: so both results are one function of the arguments,
  `Cert.Network.net`. No step uses that the inputs are finite.

  The two kernel programs' frames are generated; the reference's frame is its run with the result dropped; the
  idealization rewrote no operation, so there is nothing to preserve.
-/
import proofs.«140213_j44452911513781_1_alg».proof.Defs
import proofs.«140213_j44452911513781_1_alg».proof.Proof.Gen.Kernel
import proofs.«140213_j44452911513781_1_alg».proof.Proof.Gen.Kernel.Skeleton
import proofs.«140213_j44452911513781_1_alg».proof.Proof.Gen.Kernel.Launch
import proofs.«140213_j44452911513781_1_alg».proof.Proof.Gen.Kernel.Points
import proofs.«140213_j44452911513781_1_alg».proof.Proof.Gen.Kernel.Frame
import proofs.«140213_j44452911513781_1_alg».proof.Proof.Gen.KernelIdeal
import proofs.«140213_j44452911513781_1_alg».proof.Proof.Gen.KernelIdeal.Skeleton
import proofs.«140213_j44452911513781_1_alg».proof.Proof.Gen.KernelIdeal.Launch
import proofs.«140213_j44452911513781_1_alg».proof.Proof.Gen.KernelIdeal.Points
import proofs.«140213_j44452911513781_1_alg».proof.Proof.Gen.KernelIdeal.Frame
import proofs.«140213_j44452911513781_1_alg».proof.Proof.Gen.ReferenceIdeal
import proofs.«140213_j44452911513781_1_alg».proof.Proof.Gen.Pre_finite_inputs
import proofs.«140213_j44452911513781_1_alg».proof.Proof.KernelRun
import proofs.«140213_j44452911513781_1_alg».proof.Proof.KernelStages
import proofs.«140213_j44452911513781_1_alg».proof.Proof.ReferenceRun
import proofs.«140213_j44452911513781_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the network of their arguments in the result buffer, and the arguments agree. -/
theorem algebraic : Cert.algebraic_KernelIdeal_ReferenceIdeal := by
  intro m ρ m' ρ' _ hagree
  refine ⟨fun c => Cert.KernelIdeal.Gen.W8 m ρ c (Proc.devRef .tc Cert.KernelIdeal.main_v69),
    Cert.KernelIdeal.Run.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  rw [Cert.ReferenceIdeal.RefValue.res_eq]
  show _ = Cert.KernelIdeal.Gen.W8 m ρ c (Proc.devRef .tc Cert.KernelIdeal.main_v69)
  rw [Cert.KernelIdeal.Stages.out2, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
